-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S4096x11008 .f32) (main_arg6 : FVec F S4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S4096x11008 .f32 := Host.absf main_arg5
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8x16x4096 .f32) (main_arg1 : FVec F S11008x4096 .f32) (main_arg2 : FVec F S11008 .f32) (main_arg3 : FVec F S11008x4096 .f32) (main_arg4 : FVec F S11008 .f32) (main_arg5 : FVec F S4096x11008 .f32) (main_arg6 : FVec F S4096 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg4 main_arg5 main_arg6 main_v13 main_v16
-- ==== Kernel.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S128x4096 : Shape := ⟨2, ![128, 4096]⟩
abbrev S1x11008 : Shape := ⟨2, ![1, 11008]⟩
abbrev S1x4096 : Shape := ⟨2, ![1, 4096]⟩
abbrev S2x128x4096 : Shape := ⟨3, ![2, 128, 4096]⟩
abbrev S1x128 : Shape := ⟨2, ![1, 128]⟩
abbrev S4096x128 : Shape := ⟨2, ![4096, 128]⟩
abbrev S1x128x4096 : Shape := ⟨3, ![1, 128, 4096]⟩
abbrev S128x128 : Shape := ⟨2, ![128, 128]⟩

abbrev nBuf : Space → Nat
  | .hbm => 18
  | .vmem => 14
  | .smem => 0
  | _ => 0

abbrev bufTy : (tb : Table) → Fin (tcTables nBuf tb) → BufTy
  | .hbm, ⟨0, _⟩ => ⟨S8x16x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S128x4096, .f32⟩
  | .hbm, ⟨8, _⟩ => ⟨S1x11008, .f32⟩
  | .hbm, ⟨9, _⟩ => ⟨S1x11008, .f32⟩
  | .hbm, ⟨10, _⟩ => ⟨S1x4096, .f32⟩
  | .hbm, ⟨11, _⟩ => ⟨S2x128x4096, .f32⟩
  | .hbm, ⟨12, _⟩ => ⟨S1x128x4096, .f32⟩
  | .hbm, ⟨13, _⟩ => ⟨S128x4096, .f32⟩
  | .hbm, ⟨14, _⟩ => ⟨S1x128x4096, .f32⟩
  | .hbm, ⟨15, _⟩ => ⟨S128x4096, .f32⟩
  | .hbm, ⟨16, _⟩ => ⟨S128x4096, .f32⟩
  | .hbm, ⟨17, _⟩ => ⟨S8x16x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S1x128, .f32⟩
  | .local _ .vmem, ⟨4, _⟩ => ⟨S1x128, .f32⟩
  | .local _ .vmem, ⟨5, _⟩ => ⟨S128x4096, .f32⟩
  | .local _ .vmem, ⟨6, _⟩ => ⟨S128x4096, .f32⟩
  | .local _ .vmem, ⟨7, _⟩ => ⟨S1x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | .local _ .vmem, ⟨11, _⟩ => ⟨S1x4096, .f32⟩
  | .local _ .vmem, ⟨12, _⟩ => ⟨S1x128x4096, .f32⟩
  | .local _ .vmem, ⟨13, _⟩ => ⟨S1x128x4096, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8x16x4096_S128x4096 : S8x16x4096.ShapeCasts S128x4096
  shapeCasts_S11008_S1x11008 : S11008.ShapeCasts S1x11008
  shapeCasts_S4096_S1x4096 : S4096.ShapeCasts S1x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S4096x128_S4096x128_0_0 : ∀ a, (![0, 0] : Fin 2 → Nat) a + S4096x128.size a ≤ S4096x128.size a
  h_S4096x128 : 0 < S4096x128.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S2x128x4096_S1x128x4096_0_0_0 : S2x128x4096.Slices ![0, 0, 0] S1x128x4096
  slices_S2x128x4096_S1x128x4096_1_0_0 : S2x128x4096.Slices ![1, 0, 0] S1x128x4096
  shapeCasts_S128x4096_S8x16x4096 : S128x4096.ShapeCasts S8x16x4096
  dot_S128x4096_S128x4096_S128x128_1_1_0_0_n_n_wf : DotDims.WF S128x4096 S128x4096 S128x128 [1] [1] [0] [0] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x11008.size a
  hwx0_2 : ∀ i : grid0.Coords, EltTy.bits .f32 = 32 ∨ (Rect.block (s := S1x11008) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .f32 = 32 ∨ (Rect.block (s := S11008x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x11008.size a
  hwx0_4 : ∀ i : grid0.Coords, EltTy.bits .f32 = 32 ∨ (Rect.block (s := S1x11008) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x11008.size a
  hwx0_5 : ∀ i : grid0.Coords, EltTy.bits .f32 = 32 ∨ (Rect.block (s := S4096x11008) S4096x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x4096.size a ≤ S2x128x4096.size a
  hwx0_7 : ∀ i : grid0.Coords, EltTy.bits .f32 = 32 ∨ (Rect.block (s := S2x128x4096) S1x128x4096.size (cc0_transform_7 i) (hinb0_7 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x16x4096 : Shape := ⟨3, ![8, 16, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S8x16x11008 : Shape := ⟨3, ![8, 16, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S8x16x11008, .f32⟩
  | .hbm, ⟨8, _⟩ => ⟨S1x1x11008, .f32⟩
  | .hbm, ⟨9, _⟩ => ⟨S8x16x11008, .f32⟩
  | .hbm, ⟨10, _⟩ => ⟨S8x16x11008, .f32⟩
  | .hbm, ⟨11, _⟩ => ⟨S8x16x11008, .f32⟩
  | .hbm, ⟨12, _⟩ => ⟨S1x1x11008, .f32⟩
  | .hbm, ⟨13, _⟩ => ⟨S8x16x11008, .f32⟩
  | .hbm, ⟨14, _⟩ => ⟨S8x16x11008, .f32⟩
  | .hbm, ⟨15, _⟩ => ⟨S8x16x11008, .f32⟩
  | .hbm, ⟨16, _⟩ => ⟨S8x16x11008, .f32⟩
  | .hbm, ⟨17, _⟩ => ⟨S_, .f32⟩
  | .hbm, ⟨18, _⟩ => ⟨S8x16x11008, .f32⟩
  | .hbm, ⟨19, _⟩ => ⟨S8x16x11008, .f32⟩
  | .hbm, ⟨20, _⟩ => ⟨S_, .f32⟩
  | .hbm, ⟨21, _⟩ => ⟨S8x16x11008, .f32⟩
  | .hbm, ⟨22, _⟩ => ⟨S8x16x11008, .f32⟩
  | .hbm, ⟨23, _⟩ => ⟨S8x16x11008, .f32⟩
  | .hbm, ⟨24, _⟩ => ⟨S8x16x11008, .f32⟩
  | .hbm, ⟨25, _⟩ => ⟨S8x16x4096, .f32⟩
  | .hbm, ⟨26, _⟩ => ⟨S1x1x4096, .f32⟩
  | .hbm, ⟨27, _⟩ => ⟨S8x16x4096, .f32⟩
  | .hbm, ⟨28, _⟩ => ⟨S8x16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S8x16x11008_0_1_2 : S1x1x11008.BroadcastsInDim S8x16x11008 (![0, 1, 2] : Fin 3 → Fin S8x16x11008.rank)
  bcast_S_S8x16x11008 : S_.BroadcastsInDim S8x16x11008 (![] : Fin 0 → Fin S8x16x11008.rank)
  bcast_S4096_S1x1x4096_2 : S4096.BroadcastsInDim S1x1x4096 (![2] : Fin 1 → Fin S1x1x4096.rank)
  bcast_S1x1x4096_S8x16x4096_0_1_2 : S1x1x4096.BroadcastsInDim S8x16x4096 (![0, 1, 2] : Fin 3 → Fin S8x16x4096.rank)
  dot_S8x16x4096_S11008x4096_S8x16x11008_2_1_01_0_n_n_wf : DotDims.WF S8x16x4096 S11008x4096 S8x16x11008 [2] [1] [0, 1] [0] [] []
  dot_S8x16x11008_S4096x11008_S8x16x4096_2_1_01_0_n_n_wf : DotDims.WF S8x16x11008 S4096x11008 S8x16x4096 [2] [1] [0, 1] [0] [] []

variable [Facts₀]

def dot_S8x16x4096_S11008x4096_S8x16x11008_2_1_01_0_n_n : DotDims S8x16x4096 S11008x4096 S8x16x11008 where
  lhsContracting := [2]
  rhsContracting := [1]
  lhsNonContracting := [0, 1]
  rhsNonContracting := [0]
  lhsBatch := []
  rhsBatch := []
  wf := dot_S8x16x4096_S11008x4096_S8x16x11008_2_1_01_0_n_n_wf
def dot_S8x16x11008_S4096x11008_S8x16x4096_2_1_01_0_n_n : DotDims S8x16x11008 S4096x11008 S8x16x4096 where
  lhsContracting := [2]
  rhsContracting := [1]
  lhsNonContracting := [0, 1]
  rhsNonContracting := [0]
  lhsBatch := []
  rhsBatch := []
  wf := dot_S8x16x11008_S4096x11008_S8x16x4096_2_1_01_0_n_n_wf

class Facts : Prop extends Facts₀ where

variable [Facts]
-- ==== Proof.Pieces.lean ====
/-
  What each of the three control cases of the kernel body leaves in the output block's buffer, as a pure term of the
  blocks it loaded: the accumulation step `k0_pay3` (previous contents plus this chunk's product), started from the
  zero block `k0_pay2` at the first step of a half, and followed by the scaling `k0_pay1` at its last step.
-/
import proofs.«154641_j27650999451936_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A step in the middle of a half: the body's one covering store leaves the accumulation step's result over the
    buffer's previous contents. -/
theorem out_B (c : Dev nD) (i : grid0.Coords) (a2 : Memref sig .tc .vmem S128x4096 .f32) (h2 : a2.IsWhole) (a3 : Memref sig .tc .vmem S128x4096 .f32) (h3 : a3.IsWhole) (a4 : Memref sig .tc .vmem S1x128 .f32) (h4 : a4.IsWhole) (a5 : Memref sig .tc .vmem S128x4096 .f32) (h5 : a5.IsWhole) (a6 : Memref sig .tc .vmem S1x128 .f32) (h6 : a6.IsWhole) (a7 : Memref sig .tc .vmem S4096x128 .f32) (h7 : a7.IsWhole) (a8 : Memref sig .tc .vmem S1x4096 .f32) (h8 : a8.IsWhole) (a9 : Memref sig .tc .vmem S1x128x4096 .f32) (h9 : a9.IsWhole) (hc0 : ¬cond0_0 i) (hc1 : ¬cond0_1 i) (x0 : Vec F S128x4096 .f32) (x1 : Vec F S128x4096 .f32) (x2 : Vec F S1x128 .f32) (x3 : Vec F S128x4096 .f32) (x4 : Vec F S1x128 .f32) (x5 : Vec F S4096x128 .f32) (x6 : Vec F S1x4096 .f32) (xo7 : Vec F S1x128x4096 .f32) :
    out0_B_7 c i a2 h2 a3 h3 a4 h4 a5 h5 a6 h6 a7 h7 a8 h8 a9 h9 hc0 hc1 x0 x1 x2 x3 x4 x5 x6 xo7 = k0_pay3 x0 x1 x3 x2 x4 x5 xo7 := by
  unfold out0_B_7
  rw [View.read_writes_eq_canon _ _ _ (cover0_B_7 c i a2 h2 a3 h3 a4 h4 a5 h5 a6 h6 a7 h7 a8 h8 a9 h9 hc0 hc1 x0 x1 x2 x3 x4 x5 x6 xo7)]
  unfold kernelRun0_B
  dsimp only
  rw [View.canon_unit_zero hz3]
  simp only [View.readAt_eq_ld, h2.read_unread, h3.read_unread, h4.read_unread, h5.read_unread, h6.read_unread, h7.read_unread, h8.read_unread, h9.read_unread, View.ld_unit_zero (S := S128x4096) hz2, View.ld_unit_zero (S := S1x128) hz2, View.ld_unit_zero (S := S4096x128) hz2, View.ld_unit_zero (S := S1x4096) hz2, View.ld_unit_zero (S := S1x128x4096) hz3]

/-- The first step of a half: the body stores the zero block, reads it back, and leaves the accumulation step's
    result over it. -/
theorem out_A (c : Dev nD) (i : grid0.Coords) (a2 : Memref sig .tc .vmem S128x4096 .f32) (h2 : a2.IsWhole) (a3 : Memref sig .tc .vmem S128x4096 .f32) (h3 : a3.IsWhole) (a4 : Memref sig .tc .vmem S1x128 .f32) (h4 : a4.IsWhole) (a5 : Memref sig .tc .vmem S128x4096 .f32) (h5 : a5.IsWhole) (a6 : Memref sig .tc .vmem S1x128 .f32) (h6 : a6.IsWhole) (a7 : Memref sig .tc .vmem S4096x128 .f32) (h7 : a7.IsWhole) (a8 : Memref sig .tc .vmem S1x4096 .f32) (h8 : a8.IsWhole) (a9 : Memref sig .tc .vmem S1x128x4096 .f32) (h9 : a9.IsWhole) (hc0 : cond0_0 i) (hc1 : ¬cond0_1 i) (x0 : Vec F S128x4096 .f32) (x1 : Vec F S128x4096 .f32) (x2 : Vec F S1x128 .f32) (x3 : Vec F S128x4096 .f32) (x4 : Vec F S1x128 .f32) (x5 : Vec F S4096x128 .f32) (x6 : Vec F S1x4096 .f32) :
    out0_A_7 c i a2 h2 a3 h3 a4 h4 a5 h5 a6 h6 a7 h7 a8 h8 a9 h9 hc0 hc1 x0 x1 x2 x3 x4 x5 x6 = k0_pay3 x0 x1 x3 x2 x4 x5 k0_pay2 := by
  unfold out0_A_7
  rw [View.read_writes_eq_canon _ _ _ (cover0_A_7 c i a2 h2 a3 h3 a4 h4 a5 h5 a6 h6 a7 h7 a8 h8 a9 h9 hc0 hc1 x0 x1 x2 x3 x4 x5 x6)]
  unfold kernelRun0_A
  dsimp only
  sl_unfold_words
  rw [View.canon_cons_unit_zero (S := S1x128x4096) hz3, View.readCov_unit_zero (S := S1x128x4096) _ hz3]
  simp only [View.readAt_eq_ld, h2.read_unread, h3.read_unread, h4.read_unread, h5.read_unread, h6.read_unread, h7.read_unread, h8.read_unread, h9.read_unread, View.ld_unit_zero (S := S128x4096) hz2, View.ld_unit_zero (S := S1x128) hz2, View.ld_unit_zero (S := S4096x128) hz2, View.ld_unit_zero (S := S1x4096) hz2, View.ld_unit_zero (S := S1x128x4096) hz3]

/-- The last step of a half: the accumulation step's result is stored, read back, and overwritten by its product
    with the output scale row. -/
theorem out_C (c : Dev nD) (i : grid0.Coords) (a2 : Memref sig .tc .vmem S128x4096 .f32) (h2 : a2.IsWhole) (a3 : Memref sig .tc .vmem S128x4096 .f32) (h3 : a3.IsWhole) (a4 : Memref sig .tc .vmem S1x128 .f32) (h4 : a4.IsWhole) (a5 : Memref sig .tc .vmem S128x4096 .f32) (h5 : a5.IsWhole) (a6 : Memref sig .tc .vmem S1x128 .f32) (h6 : a6.IsWhole) (a7 : Memref sig .tc .vmem S4096x128 .f32) (h7 : a7.IsWhole) (a8 : Memref sig .tc .vmem S1x4096 .f32) (h8 : a8.IsWhole) (a9 : Memref sig .tc .vmem S1x128x4096 .f32) (h9 : a9.IsWhole) (hc0 : ¬cond0_0 i) (hc1 : cond0_1 i) (x0 : Vec F S128x4096 .f32) (x1 : Vec F S128x4096 .f32) (x2 : Vec F S1x128 .f32) (x3 : Vec F S128x4096 .f32) (x4 : Vec F S1x128 .f32) (x5 : Vec F S4096x128 .f32) (x6 : Vec F S1x4096 .f32) (xo7 : Vec F S1x128x4096 .f32) :
    out0_C_7 c i a2 h2 a3 h3 a4 h4 a5 h5 a6 h6 a7 h7 a8 h8 a9 h9 hc0 hc1 x0 x1 x2 x3 x4 x5 x6 xo7 = k0_pay1 (k0_pay3 x0 x1 x3 x2 x4 x5 xo7) x6 := by
  unfold out0_C_7
  rw [View.read_writes_eq_canon _ _ _ (cover0_C_7 c i a2 h2 a3 h3 a4 h4 a5 h5 a6 h6 a7 h7 a8 h8 a9 h9 hc0 hc1 x0 x1 x2 x3 x4 x5 x6 xo7)]
  unfold kernelRun0_C
  dsimp only
  sl_unfold_words
  rw [View.canon_cons_unit_zero (S := S1x128x4096) hz3, View.readCov_unit_zero (S := S1x128x4096) _ hz3]
  simp only [View.readAt_eq_ld, h2.read_unread, h3.read_unread, h4.read_unread, h5.read_unread, h6.read_unread, h7.read_unread, h8.read_unread, h9.read_unread, View.ld_unit_zero (S := S128x4096) hz2, View.ld_unit_zero (S := S1x128) hz2, View.ld_unit_zero (S := S4096x128) hz2, View.ld_unit_zero (S := S1x4096) hz2, View.ld_unit_zero (S := S1x128x4096) hz3]

end Cert.KernelIdeal.Pieces

end
-- ==== Proof.Spec.lean ====
/-
  The mathematics of the gated feed-forward block, with no program in sight.

  For one activation row `x` (4096 entries) and one output column `h` the block computes
      out = (∑ₒ gate(uₒ, gₒ) · w2[h, o]) · s2[h],        o over the 11008 intermediate channels,
      uₒ = (∑ₖ xₖ · w1[o, k]) · s1[o],   gₒ = (∑ₖ xₖ · w3[o, k]) · s3[o],   gate(u, g) = u · logistic(u) · g.
  One side evaluates the sum over `o` in one go. The other cuts the 11008 channels into 86 chunks of 128, gives
  chunks 0..42 to one half and 43..85 to the other, accumulates each half chunk by chunk from zero, scales each
  half by `s2[h]` after its last chunk, and adds the two scaled halves. Re-grouping a finite sum is free on the
  extended reals; pulling the common factor `s2[h]` out of the sum of the two halves is distributivity, which on the
  extended reals holds when the three numbers involved are finite. Hence `IsReal`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GatedFfn

/-! ## Finite extended reals -/

/-- An extended real that is a real number. -/
def IsReal (x : EReal) : Prop := ∃ r : ℝ, x = (r : EReal)

theorem IsReal.zero : IsReal 0 := ⟨0, EReal.coe_zero.symm⟩

theorem IsReal.add {a b : EReal} : IsReal a → IsReal b → IsReal (a + b) := by
  rintro ⟨x, rfl⟩ ⟨y, rfl⟩; exact ⟨x + y, (EReal.coe_add x y).symm⟩

theorem IsReal.mul {a b : EReal} : IsReal a → IsReal b → IsReal (a * b) := by
  rintro ⟨x, rfl⟩ ⟨y, rfl⟩; exact ⟨x * y, (EReal.coe_mul x y).symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The logistic function of a real is a real (it lies strictly between 0 and 1). -/
theorem IsReal.logistic {a : EReal} : IsReal a → IsReal (Ideal.logistic a) := by
  rintro ⟨x, rfl⟩; exact ⟨_, Ideal.logistic_coe x⟩

/-- Distributivity on the extended reals, for finite numbers. -/
theorem add_mul_of_isReal {a b s : EReal} (ha : IsReal a) (hb : IsReal b) (hs : IsReal s) :
    (a + b) * s = a * s + b * s := by
  obtain ⟨x, rfl⟩ := ha; obtain ⟨y, rfl⟩ := hb; obtain ⟨z, rfl⟩ := hs
  rw [← EReal.coe_add, ← EReal.coe_mul, ← EReal.coe_mul, ← EReal.coe_mul, ← EReal.coe_add, add_mul]

/-! ## A sum of 11008 terms as 86 chunks of 128 -/

/-- Chunk `q` of a sequence: its 128 consecutive terms from position `128 q`. -/
def chunk (f : ℕ → EReal) (q : ℕ) : EReal := ∑ l ∈ Finset.range 128, f (128 * q + l)

/-- The first `128 Q` terms are the first `Q` chunks. -/
theorem sum_chunks (f : ℕ → EReal) (Q : ℕ) : ∑ o ∈ Finset.range (128 * Q), f o = ∑ q ∈ Finset.range Q, chunk f q := by
  induction Q with
  | zero => simp
  | succ Q ih => rw [Nat.mul_succ, Finset.sum_range_add, ih, Finset.sum_range_succ (chunk f) Q]; rfl

/-! ## The accumulator along the 86 steps -/

/-- What the accumulator holds after step `n` (steps 0..42 are the first half, 43..85 the second): at the first step
    of a half it restarts from zero, at every step it adds that step's chunk product `P n`, and after the last step
    of a half it is scaled by `s`. -/
def acc (P : ℕ → EReal) (s : EReal) : ℕ → EReal
  | 0 => 0 + P 0
  | n + 1 =>
    if (n + 1) % 43 = 0 then 0 + P (n + 1)
    else if (n + 1) % 43 = 42 then (acc P s n + P (n + 1)) * s
    else acc P s n + P (n + 1)

theorem acc_first (P : ℕ → EReal) (s : EReal) (n : ℕ) (h : n % 43 = 0) : acc P s n = 0 + P n := by
  cases n with
  | zero => rfl
  | succ n => rw [acc, if_pos h]

theorem acc_mid (P : ℕ → EReal) (s : EReal) (n : ℕ) (h0 : ¬(n + 1) % 43 = 0) (h1 : ¬(n + 1) % 43 = 42) :
    acc P s (n + 1) = acc P s n + P (n + 1) := by
  rw [acc, if_neg h0, if_neg h1]

theorem acc_last (P : ℕ → EReal) (s : EReal) (n : ℕ) (h0 : ¬(n + 1) % 43 = 0) (h1 : (n + 1) % 43 = 42) :
    acc P s (n + 1) = (acc P s n + P (n + 1)) * s := by
  rw [acc, if_neg h0, if_pos h1]

/-- Before a half's last step the accumulator is the plain partial sum of that half's chunk products. -/
theorem acc_partial (P : ℕ → EReal) (s : EReal) (c j : ℕ) (hj : j < 42) :
    acc P s (43 * c + j) = ∑ i ∈ Finset.range (j + 1), P (43 * c + i) := by
  induction j with
  | zero => rw [acc_first P s _ (by omega), zero_add]; simp
  | succ j ih =>
    rw [show 43 * c + (j + 1) = (43 * c + j) + 1 from rfl, acc_mid P s _ (by omega) (by omega), ih (by omega),
      Finset.sum_range_succ (fun i => P (43 * c + i)) (j + 1)]
    rfl

/-- After a half's last step it is that half's whole sum, scaled. -/
theorem acc_final (P : ℕ → EReal) (s : EReal) (c : ℕ) :
    acc P s (43 * c + 42) = (∑ i ∈ Finset.range 43, P (43 * c + i)) * s := by
  rw [show 43 * c + 42 = (43 * c + 41) + 1 from rfl, acc_last P s _ (by omega) (by omega), acc_partial P s c 41 (by omega)]
  congr 1
  exact (Finset.sum_range_succ (fun i => P (43 * c + i)) 42).symm

/-- THE LAW that joins the two sides: the two scaled halves add up to the whole sum scaled once — re-grouping, then
    distributivity over finite numbers. -/
theorem halves_scaled (f : ℕ → EReal) (s : EReal) (hf : ∀ n, IsReal (f n)) (hs : IsReal s) :
    (∑ j ∈ Finset.range 43, chunk f (43 * 0 + j)) * s + (∑ j ∈ Finset.range 43, chunk f (43 * 1 + j)) * s
      = (∑ o ∈ Finset.range 11008, f o) * s := by
  have hc : ∀ q, IsReal (chunk f q) := fun q => IsReal.sum _ _ fun l _ => hf _
  rw [← add_mul_of_isReal (IsReal.sum _ _ fun j _ => hc _) (IsReal.sum _ _ fun j _ => hc _) hs,
    show (11008 : ℕ) = 128 * (43 + 43) from rfl, sum_chunks, Finset.sum_range_add]
  simp only [Nat.mul_zero, Nat.zero_add, Nat.mul_one]

/-! ## Sequences from arrays -/

/-- A function on the 11008 channels as a sequence (zero past the end). -/
def tot (F : Fin 11008 → EReal) (n : ℕ) : EReal := if h : n < 11008 then F ⟨n, h⟩ else 0

theorem tot_isReal (F : Fin 11008 → EReal) (hF : ∀ o, IsReal (F o)) (n : ℕ) : IsReal (tot F n) := by
  unfold tot; split
  · exact hF _
  · exact IsReal.zero

theorem sum_tot (F : Fin 11008 → EReal) : ∑ o : Fin 11008, F o = ∑ n ∈ Finset.range 11008, tot F n := by
  rw [← Fin.sum_univ_eq_sum_range]
  exact Finset.sum_congr rfl fun o _ => by rw [tot, dif_pos o.isLt]

theorem chunk_tot (F : Fin 11008 → EReal) (q : ℕ) (hq : q < 86) :
    chunk (tot F) q = ∑ l : Fin 128, F ⟨128 * q + l.val, by have := l.isLt; omega⟩ := by
  unfold chunk
  rw [← Fin.sum_univ_eq_sum_range (fun l => tot F (128 * q + l)) 128]
  exact Finset.sum_congr rfl fun l _ => by rw [tot, dif_pos]

/-! ## The block's terms -/

/-- One projection of the row onto channel `o`, with its per-channel scale. -/
def proj (row : Fin 4096 → EReal) (w : (⟨2, ![11008, 4096]⟩ : Shape).Idx → EReal)
    (sc : (⟨1, ![11008]⟩ : Shape).Idx → EReal) (o : Fin 11008) : EReal :=
  (∑ k : Fin 4096, row k * w (ix2 o k)) * sc (ix1 o)

/-- The gate: `u · logistic(u) · g`. -/
def gate (u g : EReal) : EReal := u * Ideal.logistic u * g

/-- Channel `o`'s contribution to output column `h`. -/
def term (row : Fin 4096 → EReal) (w1 : (⟨2, ![11008, 4096]⟩ : Shape).Idx → EReal) (s1 : (⟨1, ![11008]⟩ : Shape).Idx → EReal)
    (w3 : (⟨2, ![11008, 4096]⟩ : Shape).Idx → EReal) (s3 : (⟨1, ![11008]⟩ : Shape).Idx → EReal)
    (w2 : (⟨2, ![4096, 11008]⟩ : Shape).Idx → EReal) (h : Fin 4096) (o : Fin 11008) : EReal :=
  gate (proj row w1 s1 o) (proj row w3 s3 o) * w2 (ix2 h o)

theorem proj_isReal {row : Fin 4096 → EReal} {w : (⟨2, ![11008, 4096]⟩ : Shape).Idx → EReal}
    {sc : (⟨1, ![11008]⟩ : Shape).Idx → EReal} (hrow : ∀ k, IsReal (row k)) (hw : ∀ i, IsReal (w i)) (hsc : ∀ i, IsReal (sc i))
    (o : Fin 11008) : IsReal (proj row w sc o) :=
  (IsReal.sum _ _ fun k _ => (hrow k).mul (hw _)).mul (hsc _)

theorem gate_isReal {u g : EReal} (hu : IsReal u) (hg : IsReal g) : IsReal (gate u g) := (hu.mul hu.logistic).mul hg

theorem term_isReal {row : Fin 4096 → EReal} {w1 w3 : (⟨2, ![11008, 4096]⟩ : Shape).Idx → EReal}
    {s1 s3 : (⟨1, ![11008]⟩ : Shape).Idx → EReal} {w2 : (⟨2, ![4096, 11008]⟩ : Shape).Idx → EReal}
    (hrow : ∀ k, IsReal (row k)) (h1 : ∀ i, IsReal (w1 i)) (hs1 : ∀ i, IsReal (s1 i)) (h3 : ∀ i, IsReal (w3 i))
    (hs3 : ∀ i, IsReal (s3 i)) (h2 : ∀ i, IsReal (w2 i)) (h : Fin 4096) (o : Fin 11008) :
    IsReal (term row w1 s1 w3 s3 w2 h o) :=
  (gate_isReal (proj_isReal hrow h1 hs1 o) (proj_isReal hrow h3 hs3 o)).mul (h2 _)

end Cert.GatedFfn

end
-- ==== Proof.Payload.lean ====
/-
  The kernel body's three stored values read at an index, over the extended reals: a matrix product into a zero
  accumulator is the plain sum over the contracted axis, a leading unit axis added or dropped by a cast does not move an
  entry, a one-row array broadcast over rows reads its one row. So the accumulation step adds to the previous
  contents, at (row r, column h), the sum over the chunk's 128 channels of gate(u, g) · w2, with u and g the two scaled
  projections of row r; the reset stores zero; the scaling multiplies by the output scale at column h.
-/
import proofs.«154641_j27650999451936_2_alg».proof.Proof.Gen.KernelIdeal.Skeleton
import proofs.«154641_j27650999451936_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Cert.GatedFfn

namespace Cert.KernelIdeal.Payload

open Cert.KernelIdeal Cert.KernelIdeal.Gen

/-! ## The two matrix products, as sums over the contracted axis -/

theorem d1_lhs0 (i : S128x128.Idx) (q : dot_S128x4096_S128x4096_S128x128_1_1_0_0_n_n.contr.Idx) : (dot_S128x4096_S128x4096_S128x128_1_1_0_0_n_n.lhsIdx i q 0).val = (i 0).val := by
  unfold DotDims.lhsIdx
  rw [dif_neg (show ¬(0 : Fin S128x4096.rank) ∈ dot_S128x4096_S128x4096_S128x128_1_1_0_0_n_n.lhsBatch by decide), dif_pos (show (0 : Fin S128x4096.rank) ∈ dot_S128x4096_S128x4096_S128x128_1_1_0_0_n_n.lhsNonContracting by decide)]
  rfl
theorem d1_lhs1 (i : S128x128.Idx) (q : dot_S128x4096_S128x4096_S128x128_1_1_0_0_n_n.contr.Idx) : (dot_S128x4096_S128x4096_S128x128_1_1_0_0_n_n.lhsIdx i q 1).val = (q ⟨0, by decide⟩).val :=
  dot_S128x4096_S128x4096_S128x128_1_1_0_0_n_n.lhsIdx_val_of_single rfl i q
theorem d1_rhs0 (i : S128x128.Idx) (q : dot_S128x4096_S128x4096_S128x128_1_1_0_0_n_n.contr.Idx) : (dot_S128x4096_S128x4096_S128x128_1_1_0_0_n_n.rhsIdx i q 0).val = (i 1).val := by
  unfold DotDims.rhsIdx
  rw [dif_neg (show ¬(0 : Fin S128x4096.rank) ∈ dot_S128x4096_S128x4096_S128x128_1_1_0_0_n_n.rhsBatch by decide), dif_pos (show (0 : Fin S128x4096.rank) ∈ dot_S128x4096_S128x4096_S128x128_1_1_0_0_n_n.rhsNonContracting by decide)]
  rfl
theorem d1_rhs1 (i : S128x128.Idx) (q : dot_S128x4096_S128x4096_S128x128_1_1_0_0_n_n.contr.Idx) : (dot_S128x4096_S128x4096_S128x128_1_1_0_0_n_n.rhsIdx i q 1).val = (q ⟨0, by decide⟩).val :=
  dot_S128x4096_S128x4096_S128x128_1_1_0_0_n_n.rhsIdx_val_of_single rfl i q

/-- Rows of `a` against rows of `b` (both 4096 long): entry (r, l) is `∑ₖ a[r, k] · b[l, k]`. -/
theorem mm1_apply (a b : FVec Ideal S128x4096 .f32) (r l : Fin 128) :
    matmul dot_S128x4096_S128x4096_S128x128_1_1_0_0_n_n (some .fp32) a b (constant (F := Ideal) S128x128 .f32 0x00000000#32) (ix2 r l)
      = ∑ k : Fin 4096, a (ix2 r k) * b (ix2 l k) := by
  simp only [matmul]
  rw [Ideal.matmul_constant_zero_apply, ← Equiv.sum_comp (ValueIdx.contrEquiv1 dot_S128x4096_S128x4096_S128x128_1_1_0_0_n_n 4096 rfl rfl).symm]
  refine Finset.sum_congr rfl fun k _ => ?_
  have hk := ValueIdx.contrEquiv1_symm_val dot_S128x4096_S128x4096_S128x128_1_1_0_0_n_n 4096 rfl rfl k
  have el : dot_S128x4096_S128x4096_S128x128_1_1_0_0_n_n.lhsIdx (ix2 r l) ((ValueIdx.contrEquiv1 dot_S128x4096_S128x4096_S128x128_1_1_0_0_n_n 4096 rfl rfl).symm k) = ix2 r k := funext fun a => Fin.ext (by
    match a with
    | ⟨0, _⟩ => exact d1_lhs0 _ _
    | ⟨1, _⟩ => exact (d1_lhs1 _ _).trans hk)
  have er : dot_S128x4096_S128x4096_S128x128_1_1_0_0_n_n.rhsIdx (ix2 r l) ((ValueIdx.contrEquiv1 dot_S128x4096_S128x4096_S128x128_1_1_0_0_n_n 4096 rfl rfl).symm k) = ix2 l k := funext fun a => Fin.ext (by
    match a with
    | ⟨0, _⟩ => exact d1_rhs0 _ _
    | ⟨1, _⟩ => exact (d1_rhs1 _ _).trans hk)
  rw [el, er]

theorem d2_lhs0 (i : S128x4096.Idx) (q : dot_S128x128_S4096x128_S128x4096_1_1_0_0_n_n.contr.Idx) : (dot_S128x128_S4096x128_S128x4096_1_1_0_0_n_n.lhsIdx i q 0).val = (i 0).val := by
  unfold DotDims.lhsIdx
  rw [dif_neg (show ¬(0 : Fin S128x128.rank) ∈ dot_S128x128_S4096x128_S128x4096_1_1_0_0_n_n.lhsBatch by decide), dif_pos (show (0 : Fin S128x128.rank) ∈ dot_S128x128_S4096x128_S128x4096_1_1_0_0_n_n.lhsNonContracting by decide)]
  rfl
theorem d2_lhs1 (i : S128x4096.Idx) (q : dot_S128x128_S4096x128_S128x4096_1_1_0_0_n_n.contr.Idx) : (dot_S128x128_S4096x128_S128x4096_1_1_0_0_n_n.lhsIdx i q 1).val = (q ⟨0, by decide⟩).val :=
  dot_S128x128_S4096x128_S128x4096_1_1_0_0_n_n.lhsIdx_val_of_single rfl i q
theorem d2_rhs0 (i : S128x4096.Idx) (q : dot_S128x128_S4096x128_S128x4096_1_1_0_0_n_n.contr.Idx) : (dot_S128x128_S4096x128_S128x4096_1_1_0_0_n_n.rhsIdx i q 0).val = (i 1).val := by
  unfold DotDims.rhsIdx
  rw [dif_neg (show ¬(0 : Fin S4096x128.rank) ∈ dot_S128x128_S4096x128_S128x4096_1_1_0_0_n_n.rhsBatch by decide), dif_pos (show (0 : Fin S4096x128.rank) ∈ dot_S128x128_S4096x128_S128x4096_1_1_0_0_n_n.rhsNonContracting by decide)]
  rfl
theorem d2_rhs1 (i : S128x4096.Idx) (q : dot_S128x128_S4096x128_S128x4096_1_1_0_0_n_n.contr.Idx) : (dot_S128x128_S4096x128_S128x4096_1_1_0_0_n_n.rhsIdx i q 1).val = (q ⟨0, by decide⟩).val :=
  dot_S128x128_S4096x128_S128x4096_1_1_0_0_n_n.rhsIdx_val_of_single rfl i q

/-- Rows of `a` (128 long) against rows of `b`: entry (r, h) is `∑ₗ a[r, l] · b[h, l]`. -/
theorem mm2_apply (a : FVec Ideal S128x128 .f32) (b : FVec Ideal S4096x128 .f32) (r : Fin 128) (h : Fin 4096) :
    matmul dot_S128x128_S4096x128_S128x4096_1_1_0_0_n_n (some .fp32) a b (constant (F := Ideal) S128x4096 .f32 0x00000000#32) (ix2 r h)
      = ∑ l : Fin 128, a (ix2 r l) * b (ix2 h l) := by
  simp only [matmul]
  rw [Ideal.matmul_constant_zero_apply, ← Equiv.sum_comp (ValueIdx.contrEquiv1 dot_S128x128_S4096x128_S128x4096_1_1_0_0_n_n 128 rfl rfl).symm]
  refine Finset.sum_congr rfl fun k _ => ?_
  have hk := ValueIdx.contrEquiv1_symm_val dot_S128x128_S4096x128_S128x4096_1_1_0_0_n_n 128 rfl rfl k
  have el : dot_S128x128_S4096x128_S128x4096_1_1_0_0_n_n.lhsIdx (ix2 r h) ((ValueIdx.contrEquiv1 dot_S128x128_S4096x128_S128x4096_1_1_0_0_n_n 128 rfl rfl).symm k) = ix2 r k := funext fun a => Fin.ext (by
    match a with
    | ⟨0, _⟩ => exact d2_lhs0 _ _
    | ⟨1, _⟩ => exact (d2_lhs1 _ _).trans hk)
  have er : dot_S128x128_S4096x128_S128x4096_1_1_0_0_n_n.rhsIdx (ix2 r h) ((ValueIdx.contrEquiv1 dot_S128x128_S4096x128_S128x4096_1_1_0_0_n_n 128 rfl rfl).symm k) = ix2 h k := funext fun a => Fin.ext (by
    match a with
    | ⟨0, _⟩ => exact d2_rhs0 _ _
    | ⟨1, _⟩ => exact (d2_rhs1 _ _).trans hk)
  rw [el, er]

/-! ## The three stored values at an index -/

/-- The reset stores zero everywhere. -/
theorem pay2_apply (u : Fin 1) (r : Fin 128) (h : Fin 4096) : k0_pay2 (F := Ideal) (ix3 u r h) = 0 := by
  unfold k0_pay2
  rw [shapeCast_ab_1ab_apply]
  exact Ideal.ofBits_zero_f32

/-- The scaling multiplies entry (r, h) by the scale row's entry h. -/
theorem pay1_apply (v31 : FVec Ideal S1x128x4096 .f32) (v33 : FVec Ideal S1x4096 .f32) (u : Fin 1) (r : Fin 128) (h : Fin 4096) :
    k0_pay1 (F := Ideal) v31 v33 (ix3 u r h) = v31 (ix3 0 r h) * v33 (ix2 0 h) := by
  unfold k0_pay1
  rw [shapeCast_ab_1ab_apply, mulf_apply, shapeCast_1ab_ab_apply, broadcastTo_1b_ab_apply, shapeCast_self]

/-- The accumulation step at (r, h): the previous contents plus the chunk's 128 gated products. -/
theorem pay3_apply (v3 v5 v6 : FVec Ideal S128x4096 .f32) (v9 v13 : FVec Ideal S1x128 .f32) (v20 : FVec Ideal S4096x128 .f32)
    (v22 : FVec Ideal S1x128x4096 .f32) (u : Fin 1) (r : Fin 128) (h : Fin 4096) :
    k0_pay3 (F := Ideal) v3 v5 v6 v9 v13 v20 v22 (ix3 u r h)
      = v22 (ix3 0 r h) + ∑ l : Fin 128,
          gate ((∑ k : Fin 4096, v3 (ix2 r k) * v5 (ix2 l k)) * v9 (ix2 0 l))
               ((∑ k : Fin 4096, v3 (ix2 r k) * v6 (ix2 l k)) * v13 (ix2 0 l)) * v20 (ix2 h l) := by
  unfold k0_pay3
  rw [shapeCast_ab_1ab_apply, addf_apply, shapeCast_1ab_ab_apply, mm2_apply]
  refine congrArg (v22 (ix3 0 r h) + ·) (Finset.sum_congr rfl fun l _ => ?_)
  have hlog : ∀ (x : FVec Ideal S128x128 .f32) (i : S128x128.Idx), logistic x i = Ideal.logistic (x i) := fun _ _ => rfl
  simp only [mulf_apply, hlog, mm1_apply, broadcastTo_1b_ab_apply, shapeCast_self]
  rfl

end Cert.KernelIdeal.Payload

end
-- ==== Proof.Blocks.lean ====
/-
  Each input window's block at a grid step, read off the argument arrays. The 86 steps run through the 86 chunks of 128
  intermediate channels in order, so at step t the two weight windows hold rows 128 t .. 128 t + 127, their scale
  windows the matching 128 entries, and the output weight window the matching 128 columns; the hidden states and the
  output scale are whole arrays, present at every step. Three of these arrays reach the region through a host reshape
  (the hidden states flattened to 128 rows, the scale vectors as one-row arrays), which moves no entry.
-/
import proofs.«154641_j27650999451936_2_alg».proof.Proof.Gen.KernelIdeal.Frame
import proofs.«154641_j27650999451936_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The grid has 86 steps. -/
theorem lt86 (t : Fin cfg0.N) : t.val < 86 := lt_of_lt_of_eq t.isLt (show cfg0.N = 86 from N_0)

/-- Channel `l` of step `t`'s chunk: channel `128 t + l` of the 11008. -/
def chan (t : Fin cfg0.N) (l : Fin 128) : Fin 11008 := ⟨128 * t.val + l.val, by have := lt86 t; have := l.isLt; omega⟩

/-- Row `r` of the 128 flattened rows is row `(r / 16, r % 16)` of the (8, 16) leading axes. -/
def rowIdx (r : Fin 128) (k : Fin 4096) : S8x16x4096.Idx :=
  ix3 (⟨r.val / 16, by have := r.isLt; omega⟩ : Fin 8) (⟨r.val % 16, by omega⟩ : Fin 16) k

/-! ## Where each window's block sits, decided over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = t.val :=
  (by decide +kernel : ∀ t : Fin grid0.N, win0_2.index t 0 = 0 ∧ win0_2.index t 1 = t.val)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = t.val :=
  (by decide +kernel : ∀ t : Fin grid0.N, win0_5.index t 0 = 0 ∧ win0_5.index t 1 = t.val)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 43 ∧ win0_7.index t 1 = 0 ∧ win0_7.index t 2 = 0 :=
  (by decide +kernel : ∀ t : Fin grid0.N, win0_7.index t 0 = t.val / 43 ∧ win0_7.index t 1 = 0 ∧ win0_7.index t 2 = 0)

/-! ## The arrays the host reshapes hand to the region -/

/-- The hidden states as the region finds them: the (8, 16, 4096) argument flattened to (128, 4096). -/
theorem V_v0 (c : Dev nD) : (V m c main_v0 : S128x4096.Idx → EReal)
    = shapeCast S128x4096 (m ((c : Thread nD τ).loc main_arg0)) shapeCasts_S8x16x4096_S128x4096 := by
  show StableHlo.after hostOps0 (fun b => m (c, b)) (Proc.devRef .tc main_v0) = _
  after_results
  rfl

/-- The first scale vector as a one-row array. -/
theorem V_v1 (c : Dev nD) : (V m c main_v1 : S1x11008.Idx → EReal)
    = shapeCast S1x11008 (m ((c : Thread nD τ).loc main_arg2)) shapeCasts_S11008_S1x11008 := by
  show StableHlo.after hostOps0 (fun b => m (c, b)) (Proc.devRef .tc main_v1) = _
  after_results
  rfl

/-- The second scale vector as a one-row array. -/
theorem V_v2 (c : Dev nD) : (V m c main_v2 : S1x11008.Idx → EReal)
    = shapeCast S1x11008 (m ((c : Thread nD τ).loc main_arg4)) shapeCasts_S11008_S1x11008 := by
  show StableHlo.after hostOps0 (fun b => m (c, b)) (Proc.devRef .tc main_v2) = _
  after_results
  rfl

/-- The output scale vector as a one-row array. -/
theorem V_v3 (c : Dev nD) : (V m c main_v3 : S1x4096.Idx → EReal)
    = shapeCast S1x4096 (m ((c : Thread nD τ).loc main_arg6)) shapeCasts_S4096_S1x4096 := by
  show StableHlo.after hostOps0 (fun b => m (c, b)) (Proc.devRef .tc main_v3) = _
  after_results
  rfl

/-! ## Each window's block at step `t`, read off the argument arrays -/

/-- The hidden-state window is the whole flattened array at every step: entry (r, k) is the argument at row r. -/
theorem iblk0_apply (c : Dev nD) (t : Fin cfg0.N) (r : Fin 128) (k : Fin 4096) :
    (iblk m c 0 t : FVec Ideal S128x4096 .f32) (ix2 r k) = m ((c : Thread nD τ).loc main_arg0) (rowIdx r k) := by
  unfold iblk
  rw [View.read_apply]
  show V m c main_v0 _ = _
  rw [V_v0]
  refine shapeCast_apply _ _ _ _ ?_
  show (S8x16x4096.rowMajor (rowIdx r k)).val = (S128x4096.rowMajor (((cfg0.win 0).blk t).view.emb (ix2 r k))).val
  rw [Shape.rowMajor_val_three, Shape.rowMajor_val_two]
  show (r.val / 16 * 16 + r.val % 16) * 4096 + k.val
    = (win0_0.index t 0 * 128 + 1 * r.val) * 4096 + (win0_0.index t 1 * 4096 + 1 * k.val)
  rw [(idx0 t).1, (idx0 t).2]; omega

/-- The first weight window at step t: rows 128 t .. 128 t + 127. -/
theorem iblk1_apply (c : Dev nD) (t : Fin cfg0.N) (l : Fin 128) (k : Fin 4096) :
    (iblk m c 1 t : FVec Ideal S128x4096 .f32) (ix2 l k) = m ((c : Thread nD τ).loc main_arg1) (ix2 (chan t l) k) := by
  unfold iblk
  rw [View.read_apply]
  show V m c main_arg1 _ = _
  rw [V_main_arg1]
  refine congrArg _ (funext fun a => Fin.ext ?_)
  match a with
  | ⟨0, _⟩ => show win0_1.index t 0 * 128 + 1 * l.val = 128 * t.val + l.val; rw [(idx1 t).1]; omega
  | ⟨1, _⟩ => show win0_1.index t 1 * 4096 + 1 * k.val = k.val; rw [(idx1 t).2]; omega

/-- The first scale window at step t: entries 128 t .. 128 t + 127. -/
theorem iblk2_apply (c : Dev nD) (t : Fin cfg0.N) (u : Fin 1) (l : Fin 128) :
    (iblk m c 2 t : FVec Ideal S1x128 .f32) (ix2 u l) = m ((c : Thread nD τ).loc main_arg2) (ix1 (chan t l)) := by
  unfold iblk
  rw [View.read_apply]
  show V m c main_v1 _ = _
  rw [V_v1]
  refine shapeCast_apply _ _ _ _ ?_
  show (S11008.rowMajor (ix1 (chan t l))).val = (S1x11008.rowMajor (((cfg0.win 2).blk t).view.emb (ix2 u l))).val
  rw [Shape.rowMajor_val_one, Shape.rowMajor_val_two]
  show 128 * t.val + l.val = (win0_2.index t 0 * 1 + 1 * u.val) * 11008 + (win0_2.index t 1 * 128 + 1 * l.val)
  rw [(idx2 t).1, (idx2 t).2]; omega

/-- The second weight window at step t. -/
theorem iblk3_apply (c : Dev nD) (t : Fin cfg0.N) (l : Fin 128) (k : Fin 4096) :
    (iblk m c 3 t : FVec Ideal S128x4096 .f32) (ix2 l k) = m ((c : Thread nD τ).loc main_arg3) (ix2 (chan t l) k) := by
  unfold iblk
  rw [View.read_apply]
  show V m c main_arg3 _ = _
  rw [V_main_arg3]
  refine congrArg _ (funext fun a => Fin.ext ?_)
  match a with
  | ⟨0, _⟩ => show win0_3.index t 0 * 128 + 1 * l.val = 128 * t.val + l.val; rw [(idx3 t).1]; omega
  | ⟨1, _⟩ => show win0_3.index t 1 * 4096 + 1 * k.val = k.val; rw [(idx3 t).2]; omega

/-- The second scale window at step t. -/
theorem iblk4_apply (c : Dev nD) (t : Fin cfg0.N) (u : Fin 1) (l : Fin 128) :
    (iblk m c 4 t : FVec Ideal S1x128 .f32) (ix2 u l) = m ((c : Thread nD τ).loc main_arg4) (ix1 (chan t l)) := by
  unfold iblk
  rw [View.read_apply]
  show V m c main_v2 _ = _
  rw [V_v2]
  refine shapeCast_apply _ _ _ _ ?_
  show (S11008.rowMajor (ix1 (chan t l))).val = (S1x11008.rowMajor (((cfg0.win 4).blk t).view.emb (ix2 u l))).val
  rw [Shape.rowMajor_val_one, Shape.rowMajor_val_two]
  show 128 * t.val + l.val = (win0_4.index t 0 * 1 + 1 * u.val) * 11008 + (win0_4.index t 1 * 128 + 1 * l.val)
  rw [(idx4 t).1, (idx4 t).2]; omega

/-- The output weight window at step t: columns 128 t .. 128 t + 127. -/
theorem iblk5_apply (c : Dev nD) (t : Fin cfg0.N) (h : Fin 4096) (l : Fin 128) :
    (iblk m c 5 t : FVec Ideal S4096x128 .f32) (ix2 h l) = m ((c : Thread nD τ).loc main_arg5) (ix2 h (chan t l)) := by
  unfold iblk
  rw [View.read_apply]
  show V m c main_arg5 _ = _
  rw [V_main_arg5]
  refine congrArg _ (funext fun a => Fin.ext ?_)
  match a with
  | ⟨0, _⟩ => show win0_5.index t 0 * 4096 + 1 * h.val = h.val; rw [(idx5 t).1]; omega
  | ⟨1, _⟩ => show win0_5.index t 1 * 128 + 1 * l.val = 128 * t.val + l.val; rw [(idx5 t).2]; omega

/-- The output scale window is the whole one-row array at every step. -/
theorem iblk6_apply (c : Dev nD) (t : Fin cfg0.N) (u : Fin 1) (h : Fin 4096) :
    (iblk m c 6 t : FVec Ideal S1x4096 .f32) (ix2 u h) = m ((c : Thread nD τ).loc main_arg6) (ix1 h) := by
  unfold iblk
  rw [View.read_apply]
  show V m c main_v3 _ = _
  rw [V_v3]
  refine shapeCast_apply _ _ _ _ ?_
  show (S4096.rowMajor (ix1 h)).val = (S1x4096.rowMajor (((cfg0.win 6).blk t).view.emb (ix2 u h))).val
  rw [Shape.rowMajor_val_one, Shape.rowMajor_val_two]
  show h.val = (win0_6.index t 0 * 1 + 1 * u.val) * 4096 + (win0_6.index t 1 * 4096 + 1 * h.val)
  rw [(idx6 t).1, (idx6 t).2]; omega

end Cert.KernelIdeal.Blocks

end
-- ==== Proof.Accum.lean ====
/-
  The output block along the 86 grid steps. Entry (r, h) of the block after step t is the specification's
  accumulator `acc` at t: restarted from zero at steps 0 and 43, increased at every step by that step's chunk of
  the channel sum for row r and column h, and scaled by the output scale at column h after steps 42 and 85. By
  induction on the step, one case of the body's control flow at a time.
-/
import proofs.«154641_j27650999451936_2_alg».proof.Proof.Pieces
import proofs.«154641_j27650999451936_2_alg».proof.Proof.Payload
import proofs.«154641_j27650999451936_2_alg».proof.Proof.Blocks

set_option maxRecDepth 16384

noncomputable section

open Idealize.ShloMosaic Idealize.ShloMosaic.TcCoe Idealize.SL.Sem Idealize.ShloMosaic.ValueIdx Cert.GatedFfn
open Idealize.ShloMosaic.Pipeline (Dat)

namespace Cert.KernelIdeal.Accum

open Cert.KernelIdeal Cert.KernelIdeal.Gen Cert.KernelIdeal.Pieces Cert.KernelIdeal.Payload Cert.KernelIdeal.Blocks

variable (m : (ℓ : Loc nD τ sig) → Buf (Elt Ideal) ℓ)

/-- Hidden row r of the 128 flattened rows. -/
def hrow (c : Dev nD) (r : Fin 128) : Fin 4096 → EReal := fun k => m ((c : Thread nD τ).loc main_arg0) (rowIdx r k)

/-- The 11008 channel terms for row r and output column h, as a sequence. -/
def seq (c : Dev nD) (r : Fin 128) (h : Fin 4096) : ℕ → EReal :=
  tot (term (hrow m c r) (m ((c : Thread nD τ).loc main_arg1)) (m ((c : Thread nD τ).loc main_arg2)) (m ((c : Thread nD τ).loc main_arg3)) (m ((c : Thread nD τ).loc main_arg4)) (m ((c : Thread nD τ).loc main_arg5)) h)

/-- The output scale at column h. -/
def oscale (c : Dev nD) (h : Fin 4096) : EReal := m ((c : Thread nD τ).loc main_arg6) (ix1 h)

/-- Step t's 128 gated products over blocks that read the arguments at chunk t are chunk t of the channel terms. -/
theorem chunk_sum (c : Dev nD) (t : Fin cfg0.N) (r : Fin 128) (h : Fin 4096)
    (x0 x1 x3 : FVec Ideal S128x4096 .f32) (x2 x4 : FVec Ideal S1x128 .f32) (x5 : FVec Ideal S4096x128 .f32)
    (e0 : ∀ k, x0 (ix2 r k) = m ((c : Thread nD τ).loc main_arg0) (rowIdx r k))
    (e1 : ∀ l k, x1 (ix2 l k) = m ((c : Thread nD τ).loc main_arg1) (ix2 (chan t l) k))
    (e2 : ∀ l, x2 (ix2 (0 : Fin 1) l) = m ((c : Thread nD τ).loc main_arg2) (ix1 (chan t l)))
    (e3 : ∀ l k, x3 (ix2 l k) = m ((c : Thread nD τ).loc main_arg3) (ix2 (chan t l) k))
    (e4 : ∀ l, x4 (ix2 (0 : Fin 1) l) = m ((c : Thread nD τ).loc main_arg4) (ix1 (chan t l)))
    (e5 : ∀ l, x5 (ix2 h l) = m ((c : Thread nD τ).loc main_arg5) (ix2 h (chan t l))) :
    (∑ l : Fin 128, gate ((∑ k : Fin 4096, x0 (ix2 r k) * x1 (ix2 l k)) * x2 (ix2 0 l))
        ((∑ k : Fin 4096, x0 (ix2 r k) * x3 (ix2 l k)) * x4 (ix2 0 l)) * x5 (ix2 h l))
      = chunk (seq m c r h) t.val := by
  unfold seq
  rw [chunk_tot _ _ (lt86 t)]
  refine Finset.sum_congr rfl fun l _ => ?_
  simp only [e0, e1, e2, e3, e4, e5]
  rfl

/-- A first step of a half: zero plus the step's chunk. -/
theorem stepA (c : Dev nD) (t : Fin cfg0.N) (h0 : t.val % 43 = 0) (h1 : ¬t.val % 43 = 42) (r : Fin 128) (h : Fin 4096) :
    outsAt0 m c t.val t.isLt (ix3 (0 : Fin 1) r h) = 0 + chunk (seq m c r h) t.val := by
  have e := (outsAt0_A m c t h0 h1).trans
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun hh => h1 ((hcond0_1 t).mp hh)) (iblk m c 0 t) (iblk m c 1 t) (iblk m c 2 t) (iblk m c 3 t) (iblk m c 4 t) (iblk m c 5 t) (iblk m c 6 t))
  refine (congrFun e (ix3 (0 : Fin 1) r h)).trans ?_
  refine (pay3_apply (iblk m c 0 t) (iblk m c 1 t) (iblk m c 3 t) (iblk m c 2 t) (iblk m c 4 t) (iblk m c 5 t) k0_pay2 0 r h).trans ?_
  rw [pay2_apply (0 : Fin 1) r h]
  exact congrArg (0 + ·) (chunk_sum m c t r h (iblk m c 0 t) (iblk m c 1 t) (iblk m c 3 t) (iblk m c 2 t) (iblk m c 4 t) (iblk m c 5 t) (iblk0_apply m c t r) (iblk1_apply m c t) (fun l => iblk2_apply m c t 0 l) (iblk3_apply m c t) (fun l => iblk4_apply m c t 0 l) (fun l => iblk5_apply m c t h l))

/-- A middle step: the previous contents plus the step's chunk. -/
theorem stepB (c : Dev nD) (t : Fin cfg0.N) (h0 : ¬t.val % 43 = 0) (h1 : ¬t.val % 43 = 42) (r : Fin 128) (h : Fin 4096) :
    outsAt0 m c t.val t.isLt (ix3 (0 : Fin 1) r h)
      = (outsAt0 m c (t.val - 1) (Nat.lt_of_le_of_lt (Nat.sub_le _ _) t.isLt)) (ix3 (0 : Fin 1) r h) + chunk (seq m c r h) t.val := by
  have e := (outsAt0_B m c t h0 h1).trans
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h0 ((hcond0_0 t).mp hh)) (fun hh => h1 ((hcond0_1 t).mp hh)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)))
  refine (congrFun e (ix3 (0 : Fin 1) r h)).trans ?_
  refine (pay3_apply (iblk m c 0 t) (iblk m c 1 t) (iblk m c 3 t) (iblk m c 2 t) (iblk m c 4 t) (iblk m c 5 t) (outsAt0 m c (t.val - 1) (Nat.lt_of_le_of_lt (Nat.sub_le _ _) t.isLt)) 0 r h).trans ?_
  exact congrArg ((outsAt0 m c (t.val - 1) (Nat.lt_of_le_of_lt (Nat.sub_le _ _) t.isLt)) (ix3 (0 : Fin 1) r h) + ·) (chunk_sum m c t r h (iblk m c 0 t) (iblk m c 1 t) (iblk m c 3 t) (iblk m c 2 t) (iblk m c 4 t) (iblk m c 5 t) (iblk0_apply m c t r) (iblk1_apply m c t) (fun l => iblk2_apply m c t 0 l) (iblk3_apply m c t) (fun l => iblk4_apply m c t 0 l) (fun l => iblk5_apply m c t h l))

/-- A last step of a half: the previous contents plus the step's chunk, all scaled. -/
theorem stepC (c : Dev nD) (t : Fin cfg0.N) (h0 : ¬t.val % 43 = 0) (h1 : t.val % 43 = 42) (r : Fin 128) (h : Fin 4096) :
    outsAt0 m c t.val t.isLt (ix3 (0 : Fin 1) r h)
      = ((outsAt0 m c (t.val - 1) (Nat.lt_of_le_of_lt (Nat.sub_le _ _) t.isLt)) (ix3 (0 : Fin 1) r h) + chunk (seq m c r h) t.val) * oscale m c h := by
  have e := (outsAt0_C m c t h0 h1).trans
    (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h0 ((hcond0_0 t).mp hh)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)))
  refine (congrFun e (ix3 (0 : Fin 1) r h)).trans ?_
  refine (pay1_apply (k0_pay3 (iblk m c 0 t) (iblk m c 1 t) (iblk m c 3 t) (iblk m c 2 t) (iblk m c 4 t) (iblk m c 5 t) (outsAt0 m c (t.val - 1) (Nat.lt_of_le_of_lt (Nat.sub_le _ _) t.isLt))) (iblk m c 6 t) 0 r h).trans ?_
  refine congr (congrArg HMul.hMul ?_) (iblk6_apply m c t 0 h)
  refine (pay3_apply (iblk m c 0 t) (iblk m c 1 t) (iblk m c 3 t) (iblk m c 2 t) (iblk m c 4 t) (iblk m c 5 t) (outsAt0 m c (t.val - 1) (Nat.lt_of_le_of_lt (Nat.sub_le _ _) t.isLt)) 0 r h).trans ?_
  exact congrArg ((outsAt0 m c (t.val - 1) (Nat.lt_of_le_of_lt (Nat.sub_le _ _) t.isLt)) (ix3 (0 : Fin 1) r h) + ·) (chunk_sum m c t r h (iblk m c 0 t) (iblk m c 1 t) (iblk m c 3 t) (iblk m c 2 t) (iblk m c 4 t) (iblk m c 5 t) (iblk0_apply m c t r) (iblk1_apply m c t) (fun l => iblk2_apply m c t 0 l) (iblk3_apply m c t) (fun l => iblk4_apply m c t 0 l) (fun l => iblk5_apply m c t h l))

/-- THE INVARIANT: after step n the block's entry (r, h) is the accumulator at n. -/
theorem outsAt_eq (c : Dev nD) (r : Fin 128) (h : Fin 4096) : ∀ (n : ℕ) (hn : n < cfg0.N),
    outsAt0 m c n hn (ix3 (0 : Fin 1) r h) = acc (chunk (seq m c r h)) (oscale m c h) n
  | 0, hn => (stepA m c ⟨0, hn⟩ rfl (by show ¬(0 : ℕ) % 43 = 42; omega) r h).trans rfl
  | n + 1, hn => by
    have hN : n + 1 < 86 := lt_of_lt_of_eq hn (show cfg0.N = 86 from N_0)
    by_cases h0 : (n + 1) % 43 = 0
    · exact (stepA m c ⟨n + 1, hn⟩ h0 (by show ¬(n + 1) % 43 = 42; omega) r h).trans (acc_first _ _ _ h0).symm
    · by_cases h1 : (n + 1) % 43 = 42
      · refine (stepC m c ⟨n + 1, hn⟩ h0 h1 r h).trans ?_
        rw [acc_last _ _ _ h0 h1]
        show (outsAt0 m c n _ (ix3 (0 : Fin 1) r h) + _) * _ = _
        rw [outsAt_eq c r h n]
      · refine (stepB m c ⟨n + 1, hn⟩ h0 h1 r h).trans ?_
        rw [acc_mid _ _ _ h0 h1]
        show outsAt0 m c n _ (ix3 (0 : Fin 1) r h) + _ = _
        rw [outsAt_eq c r h n]

end Cert.KernelIdeal.Accum

end
-- ==== Proof.Parts.lean ====
/-
  From the output block to the program's result. Each half of the grid writes its output block back once, after its
  last step, into its own slab of a (2, 128, 4096) array; the two write-backs cover that array, so it ends holding, at
  (p, r, h), half p's scaled sum for row r and column h. The host operations after the region slice the two slabs out,
  add them entry by entry, and unflatten the 128 rows to (8, 16).
-/
import proofs.«154641_j27650999451936_2_alg».proof.Proof.Accum
import Idealize.ShloMosaic.Lib.StableHlo.Run

set_option maxRecDepth 16384

noncomputable section

open Idealize.ShloMosaic Idealize.ShloMosaic.TcCoe Idealize.SL.Sem Idealize.ShloMosaic.ValueIdx Cert.GatedFfn
open Idealize.ShloMosaic.Pipeline (Dat)

namespace Cert.KernelIdeal.Parts

open Cert.KernelIdeal Cert.KernelIdeal.Gen Cert.KernelIdeal.Blocks Cert.KernelIdeal.Accum

variable (m : (ℓ : Loc nD τ sig) → Buf (Elt Ideal) ℓ) (ρ : Dev nD → PrngReg)

/-- Half p's scaled sum for row r and column h: the accumulator after that half's last step. -/
def half (c : Dev nD) (p : Fin 2) (r : Fin 128) (h : Fin 4096) : EReal :=
  acc (chunk (seq m c r h)) (oscale m c h) (43 * p.val + 42)

/-- The region's result array: entry (p, r, h) is half p's scaled sum. -/
def parts (c : Dev nD) : S2x128x4096.Idx → EReal := fun y => half m c (y 0) (y 1) (y 2)

/-- The output window's blocks are never clipped. -/
theorem xs7 : ∀ t : Fin cfg0.N, win0_7.xsize (grid0.coords t) 0 = 1 ∧ win0_7.xsize (grid0.coords t) 1 = 128
    ∧ win0_7.xsize (grid0.coords t) 2 = 4096 :=
  (by decide +kernel : ∀ t : Fin grid0.N, win0_7.xsize (grid0.coords t) 0 = 1 ∧ win0_7.xsize (grid0.coords t) 1 = 128
    ∧ win0_7.xsize (grid0.coords t) 2 = 4096)

/-- WHAT A HALF'S LAST STEP WRITES BACK is block (p, 0, 0) of `parts`: the accumulator at that step. -/
theorem flushed_eq (c : Dev nD) (t : Fin cfg0.N) (hf : (cfg0.win 7).flush t = true) :
    (dats m 0 c).flushed 7 t = ((cfg0.win 7).blk t).view.read (Elt Ideal) (parts m c) := by
  have h42 : t.val % 43 = 42 := (flush0_7 t).mp hf
  have hN := lt86 t
  show (cfg0.win 7).cut (grid0.coords t) ((dats m 0 c).after 7 t) = _
  rw [after0_7]
  refine funext fun (y : S1x128x4096.Idx) => ?_
  show outsAt0 m c t.val t.isLt y = parts m c (((cfg0.win 7).blk t).view.emb y)
  obtain ⟨u, r, h, rfl⟩ : ∃ (u : Fin 1) (r : Fin 128) (h : Fin 4096), y = ix3 u r h := ⟨y 0, y 1, y 2, eq_ix3 y⟩
  obtain rfl : u = 0 := Subsingleton.elim _ _
  have e0 : ((cfg0.win 7).blk t).view.emb (ix3 (0 : Fin 1) r h) 0 = (⟨t.val / 43, by omega⟩ : Fin 2) := Fin.ext (by
    show win0_7.index t 0 * 1 + 1 * 0 = t.val / 43
    rw [(idx7 t).1]; omega)
  have e1 : ((cfg0.win 7).blk t).view.emb (ix3 (0 : Fin 1) r h) 1 = r := Fin.ext (by
    show win0_7.index t 1 * 128 + 1 * r.val = r.val
    rw [(idx7 t).2.1]; omega)
  have e2 : ((cfg0.win 7).blk t).view.emb (ix3 (0 : Fin 1) r h) 2 = h := Fin.ext (by
    show win0_7.index t 2 * 4096 + 1 * h.val = h.val
    rw [(idx7 t).2.2]; omega)
  show _ = half m c _ _ _
  rw [e0, e1, e2]
  unfold half
  rw [outsAt_eq m c r h t.val t.isLt]
  congr 1
  show t.val = 43 * (t.val / 43) + 42
  omega

/-- Every entry (p, r, h) of the result array is written back, by the last step of half p. -/
theorem cover (c : Dev nD) (i : S2x128x4096.Idx) :
    ∃ t : Fin cfg0.N, (cfg0.win 7).flush t = true ∧ i ∈ ((cfg0.win 7).blk t).view.set := by
  have hp : (i 0).val < 2 := (i 0).isLt
  have hr : (i 1).val < 128 := (i 1).isLt
  have hh : (i 2).val < 4096 := (i 2).isLt
  have hlt : 43 * (i 0).val + 42 < cfg0.N := by rw [show cfg0.N = 86 from N_0]; omega
  refine ⟨⟨43 * (i 0).val + 42, hlt⟩, (flush0_7 _).mpr (by show (43 * (i 0).val + 42) % 43 = 42; omega), ?_⟩
  show i ∈ ((View.whole main_v4).slice (win0_7.rect ⟨43 * (i 0).val + 42, hlt⟩)).set
  rw [View.set_slice_whole, Rect.mem_set_unit]
  obtain ⟨j0, j1, j2⟩ := idx7 ⟨43 * (i 0).val + 42, hlt⟩
  intro a
  match a with
  | ⟨0, _⟩ =>
    show win0_7.index ⟨43 * (i 0).val + 42, hlt⟩ 0 * 1 ≤ (i 0).val ∧ (i 0).val < win0_7.index ⟨43 * (i 0).val + 42, hlt⟩ 0 * 1 + 1
    rw [j0]; show (43 * (i 0).val + 42) / 43 * 1 ≤ (i 0).val ∧ (i 0).val < (43 * (i 0).val + 42) / 43 * 1 + 1; omega
  | ⟨1, _⟩ =>
    show win0_7.index ⟨43 * (i 0).val + 42, hlt⟩ 1 * 128 ≤ (i 1).val ∧ (i 1).val < win0_7.index ⟨43 * (i 0).val + 42, hlt⟩ 1 * 128 + 128
    rw [j1]; omega
  | ⟨2, _⟩ =>
    show win0_7.index ⟨43 * (i 0).val + 42, hlt⟩ 2 * 4096 ≤ (i 2).val ∧ (i 2).val < win0_7.index ⟨43 * (i 0).val + 42, hlt⟩ 2 * 4096 + 4096
    rw [j2]; omega

/-- THE REGION'S RESULT ARRAY after the run. -/
theorem final7 (c : Dev nD) : (dats m 0 c).arrAt 7 cfg0.N = parts m c :=
  (dats m 0 c).arrAt_eq_of_cover 7 (parts m c) (flushed_eq m c) (cover c)

/-- The host operations after the region, as one function of the region's result array: the two halves sliced out,
    added entry by entry, and the 128 rows unflattened to (8, 16). -/
def tailOf (Pt : FVec Ideal S2x128x4096 .f32) : FVec Ideal S8x16x4096 .f32 :=
  shapeCast S8x16x4096
    (addf (F := Ideal) (φ := .f32)
      (shapeCast S128x4096 (extractStridedSlice S1x128x4096 ![0, 0, 0] Pt slices_S2x128x4096_S1x128x4096_0_0_0) shapeCasts_S1x128x4096_S128x4096)
      (shapeCast S128x4096 (extractStridedSlice S1x128x4096 ![1, 0, 0] Pt slices_S2x128x4096_S1x128x4096_1_0_0) shapeCasts_S1x128x4096_S128x4096))
    shapeCasts_S128x4096_S8x16x4096

/-- What the program's result buffer holds after the run: the tail of the region's result array. -/
theorem tail_eq (c : Dev nD) : Pipeline.afterTail₀ cfgs (dats m) 0 (V0 m) [hostOps1] c main_v10 = tailOf (parts m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v4)
      = parts m c :=
    (Pipeline.withArrays_arr spec0 launch0.win.arr_inj c _ _ 7).trans (final7 m c)
  rw [hw]
  rfl

/-- The tail at (b, s, h): the two halves' entries at flattened row 16 b + s, added. -/
theorem tail_apply (Pt : FVec Ideal S2x128x4096 .f32) (b : Fin 8) (s : Fin 16) (h : Fin 4096) :
    tailOf Pt (ix3 b s h)
      = Pt (ix3 (0 : Fin 2) (⟨16 * b.val + s.val, by omega⟩ : Fin 128) h)
        + Pt (ix3 (1 : Fin 2) (⟨16 * b.val + s.val, by omega⟩ : Fin 128) h) := by
  unfold tailOf
  rw [shapeCast_apply _ _ (ix3 b s h) (ix2 (⟨16 * b.val + s.val, by omega⟩ : Fin 128) h) (by
    rw [Shape.rowMajor_val_two, Shape.rowMajor_val_three]
    show (16 * b.val + s.val) * 4096 + h.val = (b.val * 16 + s.val) * 4096 + h.val
    omega)]
  rw [addf_apply, shapeCast_1ab_ab_apply, shapeCast_1ab_ab_apply]
  rw [extractStridedSlice_apply ![0, 0, 0] Pt _ (ix3 (0 : Fin 1) (⟨16 * b.val + s.val, by omega⟩ : Fin 128) h)
      (ix3 (0 : Fin 2) (⟨16 * b.val + s.val, by omega⟩ : Fin 128) h) (fun a => by
        match a with
        | ⟨0, _⟩ => rfl
        | ⟨1, _⟩ => exact (Nat.zero_add _).symm
        | ⟨2, _⟩ => exact (Nat.zero_add _).symm),
    extractStridedSlice_apply ![1, 0, 0] Pt _ (ix3 (0 : Fin 1) (⟨16 * b.val + s.val, by omega⟩ : Fin 128) h)
      (ix3 (1 : Fin 2) (⟨16 * b.val + s.val, by omega⟩ : Fin 128) h) (fun a => by
        match a with
        | ⟨0, _⟩ => rfl
        | ⟨1, _⟩ => exact (Nat.zero_add _).symm
        | ⟨2, _⟩ => exact (Nat.zero_add _).symm)]

end Cert.KernelIdeal.Parts

end
-- ==== Proof.Finite.lean ====
/-
  From the precondition to finiteness. The precondition says, array by array, that every entry's absolute value is
  strictly below +inf, and conjoins the seven answers. An extended real whose absolute value is below +inf is neither
  infinity, so it is a real number.
-/
import proofs.«154641_j27650999451936_2_alg».proof.Proof.Gen.Pre_finite_inputs
import proofs.«154641_j27650999451936_2_alg».proof.Proof.Spec
import Idealize.ShloMosaic.Lib.ReduceAll
import Idealize.ShloMosaic.Lib.Pipeline.Value
import Idealize.ShloMosaic.PureOps.Ideal.Laws

noncomputable section

open Idealize.ShloMosaic Idealize.ShloMosaic.ValueIdx Cert.GatedFfn

namespace Cert.Pre_finite_inputs.Finite

open Cert.Pre_finite_inputs Cert.Pre_finite_inputs.Gen

instance : Subsingleton S_.Idx := ⟨fun a b => funext fun d => d.elim0⟩

/-- The single-precision word 0x7F800000 is +inf. -/
theorem inf_f32 : Ideal.ofBits .f32 0x7F800000#32 = ⊤ := by simp [Ideal.ofBits, Ideal.ieee]

/-- An entry whose absolute value compares below +inf is a real number. -/
theorem elem_finite (x : EReal)
    (h : FloatOps.cmpf (F := Ideal) (φ := .f32) .olt (FloatOps.hostAbsf x) (Ideal.ofBits .f32 0x7F800000#32) = 1#1) : IsReal x := by
  rw [inf_f32] at h
  have e : FloatOps.cmpf (F := Ideal) (φ := .f32) .olt (FloatOps.hostAbsf x) ⊤ = BitVec.ofBool (decide (max x (-x) < ⊤)) := rfl
  rw [e] at h
  have h' : max x (-x) < ⊤ := by
    by_contra hc
    rw [decide_eq_false hc] at h
    exact absurd h (by decide)
  induction x using EReal.rec
  · exact absurd h' (by simp)
  · exact ⟨_, rfl⟩
  · exact absurd h' (by simp)

/-- One array's `all(|a| < inf)`: every entry is a real number. -/
theorem all_finite {S : Shape} {axes : List (Fin S.rank)} (a : FVec Ideal S .f32)
    (bc : S_.BroadcastsInDim S (![] : Fin 0 → Fin S.rank)) (red : S.ReducesTo axes S_) (hpos : 0 < S_.numel) (j : S_.Idx)
    (e : Host.reduce IntOp.andi (cmpf .olt (Host.absf a) (broadcastInDim S ![] bc (constant (F := Ideal) S_ .f32 0x7F800000#32)))
      (constantI S_ 1 1#1) red hpos j = 1#1) (i : S.Idx) : IsReal (a i) := by
  have hi := Host.reduce_andi_all _ _ red hpos j e i
  refine elem_finite (a i) ?_
  have hb : broadcastInDim S ![] bc (constant (F := Ideal) S_ .f32 0x7F800000#32) i = Ideal.ofBits .f32 0x7F800000#32 := by
    rw [broadcastInDim_apply _ bc _ i ix0 (fun a => a.elim0)]; rfl
  rw [← hb]; exact hi

/-- THE PRECONDITION, READ: every entry of every one of the seven arrays is a real number. -/
theorem finite_of_pre (a0 : FVec Ideal S8x16x4096 .f32) (a1 : FVec Ideal S11008x4096 .f32) (a2 : FVec Ideal S11008 .f32)
    (a3 : FVec Ideal S11008x4096 .f32) (a4 : FVec Ideal S11008 .f32) (a5 : FVec Ideal S4096x11008 .f32) (a6 : FVec Ideal S4096 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_finite a0 _ _ _ _ e0, all_finite a1 _ _ _ _ e1, all_finite a2 _ _ _ _ e2, all_finite a3 _ _ _ _ e3,
    all_finite a4 _ _ _ _ e4, all_finite a5 _ _ _ _ e5, all_finite a6 _ _ _ _ e6⟩

end Cert.Pre_finite_inputs.Finite

end
-- ==== Proof.Final.lean ====
/-
  The idealized kernel program's result, and its run. Entry (b, s, h) of the result is the sum of the two halves'
  scaled sums at flattened row 16 b + s; under the precondition every number involved is finite, so the common
  scale factors out (distributivity) and the two half-sums re-group into the one sum over all 11008 channels:
  the same value the one-pass formula gives.
-/
import proofs.«154641_j27650999451936_2_alg».proof.Proof.Parts
import proofs.«154641_j27650999451936_2_alg».proof.Proof.Finite

set_option maxRecDepth 16384

noncomputable section

open Idealize.ShloMosaic Idealize.ShloMosaic.TcCoe Idealize.SL.Sem Idealize.ShloMosaic.ValueIdx Cert.GatedFfn
open Idealize.ShloMosaic.Pipeline (Dat)

namespace Cert.KernelIdeal.Final

open Cert.KernelIdeal Cert.KernelIdeal.Gen Cert.KernelIdeal.Blocks Cert.KernelIdeal.Accum Cert.KernelIdeal.Parts

variable (m : (ℓ : Loc nD τ sig) → Buf (Elt Ideal) ℓ) (ρ : Dev nD → PrngReg)

/-- Flattened row 16 b + s is row (b, s). -/
theorem rowIdx_flat (b : Fin 8) (s : Fin 16) (k : Fin 4096) :
    rowIdx (⟨16 * b.val + s.val, by omega⟩ : Fin 128) k = ix3 b s k :=
  funext fun a => Fin.ext (by
    match a with
    | ⟨0, _⟩ => show (16 * b.val + s.val) / 16 = b.val; omega
    | ⟨1, _⟩ => show (16 * b.val + s.val) % 16 = s.val; omega
    | ⟨2, _⟩ => rfl)

/-- The program's result array. -/
def result (c : Dev nD) : FVec Ideal S8x16x4096 .f32 := tailOf (parts m c)

/-- THE KERNEL PROGRAM'S VALUE at (b, s, h), under the precondition: the one-pass formula. -/
theorem result_apply (c : Dev nD)
    (hpre : Cert.Pre_finite_inputs.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) = fun _ => 1#1)
    (b : Fin 8) (s : Fin 16) (h : Fin 4096) :
    result m c (ix3 b s h)
      = (∑ o : Fin 11008, term (fun k => m ((c : Thread nD τ).loc main_arg0) (ix3 b s k)) (m ((c : Thread nD τ).loc main_arg1)) (m ((c : Thread nD τ).loc main_arg2))
          (m ((c : Thread nD τ).loc main_arg3)) (m ((c : Thread nD τ).loc main_arg4)) (m ((c : Thread nD τ).loc main_arg5)) h o) * m ((c : Thread nD τ).loc main_arg6) (ix1 h) := by
  obtain ⟨f0, f1, f2, f3, f4, f5, f6⟩ := Cert.Pre_finite_inputs.Finite.finite_of_pre _ _ _ _ _ _ _ hpre
  unfold result
  rw [tail_apply]
  show half m c 0 (⟨16 * b.val + s.val, by omega⟩ : Fin 128) h + half m c 1 (⟨16 * b.val + s.val, by omega⟩ : Fin 128) h = _
  unfold half
  rw [acc_final, acc_final]
  have hseq : ∀ n, IsReal (seq m c (⟨16 * b.val + s.val, by omega⟩ : Fin 128) h n) := fun n =>
    tot_isReal _ (fun o => term_isReal (fun k => f0 _) f1 f2 f3 f4 f5 h o) n
  have hs : IsReal (oscale m c h) := f6 _
  refine (halves_scaled _ _ hseq hs).trans ?_
  unfold seq oscale
  rw [← sum_tot]
  have hr : hrow m c (⟨16 * b.val + s.val, by omega⟩ : Fin 128) = fun k => m ((c : Thread nD τ).loc main_arg0) (ix3 b s k) :=
    funext fun k => congrArg (m ((c : Thread nD τ).loc main_arg0)) (rowIdx_flat b s k)
  rw [hr]

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v10 (Pipeline.mem_restRefs_of main_v10 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩) (run_main m ρ)

end Cert.KernelIdeal.Final

end
-- ==== Proof.RefValue.lean ====
/-
  The reference's result read at an index, over the extended reals: entry (b, s, h) is the sum over all 11008
  channels of gate(u, g) · w2[h, o], scaled by s2[h], where u and g are the two scaled projections of hidden row
  (b, s). Its logistic is spelt 1 / (1 + exp(-u)) with the constant one, which is the logistic function itself.
-/
import proofs.«154641_j27650999451936_2_alg».proof.Proof.Gen.ReferenceIdeal.Read
import proofs.«154641_j27650999451936_2_alg».proof.Proof.Spec

noncomputable section

open Idealize.ShloMosaic Idealize.ShloMosaic.ValueIdx Cert.GatedFfn

namespace Cert.ReferenceIdeal.RefValue

open Cert.ReferenceIdeal Cert.ReferenceIdeal.Gen Cert.ReferenceIdeal.Read

/-- The single-precision word of 1.0 is the real number one. -/
theorem one_f32 : Ideal.ofBits .f32 0x3F800000#32 = 1 := by
  simp [Ideal.ofBits, Ideal.ieee, -EReal.coe_mul]; norm_num

/-- A scaled projection of hidden row (b, s) onto channel o. -/
theorem v3_apply (x0 : FVec Ideal S8x16x4096 .f32) (x1 : FVec Ideal S11008x4096 .f32) (x2 : FVec Ideal S11008 .f32)
    (b : Fin 8) (s : Fin 16) (o : Fin 11008) :
    val_main_v3 (F := Ideal) x0 x1 x2 (ix3 b s o) = proj (fun k => x0 (ix3 b s k)) x1 x2 o := by
  rw [val_main_v3_apply, val_main_v0_apply, val_main_v2_apply, val_main_v1_apply]
  have e1 : ∀ k, lidx_main_v0 (ix3 b s o) k = ix3 b s k := fun k => funext fun a => Fin.ext (by
    match a with | ⟨0, _⟩ => rfl | ⟨1, _⟩ => rfl | ⟨2, _⟩ => rfl)
  have e2 : ∀ k, ridx_main_v0 (ix3 b s o) k = ix2 o k := fun k => funext fun a => Fin.ext (by
    match a with | ⟨0, _⟩ => rfl | ⟨1, _⟩ => rfl)
  have e3 : idx_main_v1 (idx_main_v2 (ix3 b s o)) = ix1 o := funext fun a => Fin.ext (by
    match a with | ⟨0, _⟩ => rfl)
  simp only [e1, e2, e3, Ideal.mulf_def]
  rfl

/-- The other scaled projection (the gate's linear factor). -/
theorem v7_apply (x0 : FVec Ideal S8x16x4096 .f32) (x3 : FVec Ideal S11008x4096 .f32) (x4 : FVec Ideal S11008 .f32)
    (b : Fin 8) (s : Fin 16) (o : Fin 11008) :
    val_main_v7 (F := Ideal) x0 x3 x4 (ix3 b s o) = proj (fun k => x0 (ix3 b s k)) x3 x4 o := by
  rw [val_main_v7_apply, val_main_v4_apply, val_main_v6_apply, val_main_v5_apply]
  have e1 : ∀ k, lidx_main_v4 (ix3 b s o) k = ix3 b s k := fun k => funext fun a => Fin.ext (by
    match a with | ⟨0, _⟩ => rfl | ⟨1, _⟩ => rfl | ⟨2, _⟩ => rfl)
  have e2 : ∀ k, ridx_main_v4 (ix3 b s o) k = ix2 o k := fun k => funext fun a => Fin.ext (by
    match a with | ⟨0, _⟩ => rfl | ⟨1, _⟩ => rfl)
  have e3 : idx_main_v5 (idx_main_v6 (ix3 b s o)) = ix1 o := funext fun a => Fin.ext (by
    match a with | ⟨0, _⟩ => rfl)
  simp only [e1, e2, e3, Ideal.mulf_def]
  rfl

/-- The outlined activation: u times 1 / (1 + exp(-u)), that is, u · logistic(u). -/
theorem v8_apply (x0 : FVec Ideal S8x16x4096 .f32) (x1 : FVec Ideal S11008x4096 .f32) (x2 : FVec Ideal S11008 .f32)
    (j : S8x16x11008.Idx) :
    val_main_v8 (F := Ideal) x0 x1 x2 j
      = val_main_v3 (F := Ideal) x0 x1 x2 j * Ideal.logistic (val_main_v3 (F := Ideal) x0 x1 x2 j) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.ofBits_def, one_f32]
  rfl

/-- THE REFERENCE at (b, s, h). -/
theorem ref_apply (x0 : FVec Ideal S8x16x4096 .f32) (x1 : FVec Ideal S11008x4096 .f32) (x2 : FVec Ideal S11008 .f32)
    (x3 : FVec Ideal S11008x4096 .f32) (x4 : FVec Ideal S11008 .f32) (x5 : FVec Ideal S4096x11008 .f32)
    (x6 : FVec Ideal S4096 .f32) (b : Fin 8) (s : Fin 16) (h : Fin 4096) :
    val_main_v13 (F := Ideal) x0 x1 x2 x3 x4 x5 x6 (ix3 b s h)
      = (∑ o : Fin 11008, term (fun k => x0 (ix3 b s k)) x1 x2 x3 x4 x5 h o) * x6 (ix1 h) := by
  rw [val_main_v13_apply, val_main_v10_apply, val_main_v12_apply, val_main_v11_apply]
  have e4 : ∀ k, lidx_main_v10 (ix3 b s h) k = ix3 b s k := fun k => funext fun a => Fin.ext (by
    match a with | ⟨0, _⟩ => rfl | ⟨1, _⟩ => rfl | ⟨2, _⟩ => rfl)
  have e5 : ∀ k, ridx_main_v10 (ix3 b s h) k = ix2 h k := fun k => funext fun a => Fin.ext (by
    match a with | ⟨0, _⟩ => rfl | ⟨1, _⟩ => rfl)
  have e6 : idx_main_v11 (idx_main_v12 (ix3 b s h)) = ix1 h := funext fun a => Fin.ext (by
    match a with | ⟨0, _⟩ => rfl)
  simp only [e4, e5, e6, val_main_v9_apply, v8_apply, v3_apply, v7_apply, Ideal.mulf_def]
  rfl

end Cert.ReferenceIdeal.RefValue

end
-- ==== Proof.lean ====
/-
  A gated feed-forward block with per-channel dequantisation scales, computed two ways, and the claim that the two
  agree on the extended reals when every input is finite.

  Both programs take hidden states x (8 x 16 rows of 4096), two weight matrices w1, w3 (11008 x 4096) with scale vectors
  s1, s3, and an output matrix w2 (4096 x 11008) with scale vector s2. For a row x and output column h both compute
      (∑ₒ gate(uₒ, gₒ) · w2[h, o]) · s2[h],   uₒ = (x · w1[o]) · s1[o],   gₒ = (x · w3[o]) · s3[o],
      gate(u, g) = u · logistic(u) · g.
  The reference does this in one pass, writing logistic(u) as 1 / (1 + exp(-u)): the same function. The kernel walks the
  11008 intermediate channels in 86 chunks of 128 on a 2 x 43 grid; each half of the grid accumulates its 43 chunk
  products in its own output block from zero, multiplies the block by s2 after its last chunk, and the host adds the
  two blocks. So the kernel computes (A₀ · s2[h]) + (A₁ · s2[h]) where the reference computes (A₀ + A₁) · s2[h], with A₀, A₁
  the two halves of the channel sum. Re-grouping the sum is free; factoring out s2[h] is distributivity, which holds on
  the extended reals because, under the precondition, A₀, A₁ and s2[h] are real numbers (Proof/Finite.lean reads the
  precondition, Proof/Spec.lean carries finiteness through the formula and proves the law).

  The modules: Spec (the mathematics, no program), Pieces, Payload, Blocks, Accum, Parts, Final (the kernel program's value:
  what each control case leaves in the output block, the stored values at an index, the blocks each step reads, the
  induction along the grid, the written-back array and the host operations after it, the joined run), RefValue (the
  reference's value at an index), Finite (the precondition read). The idealization rewrote nothing, so the preservation
  claim is trivial; the three frame claims are the generated frames and the reference's generated run.
-/
import proofs.«154641_j27650999451936_2_alg».proof.Defs
import proofs.«154641_j27650999451936_2_alg».proof.Proof.Gen.Kernel
import proofs.«154641_j27650999451936_2_alg».proof.Proof.Gen.Kernel.Frame
import proofs.«154641_j27650999451936_2_alg».proof.Proof.Gen.KernelIdeal
import proofs.«154641_j27650999451936_2_alg».proof.Proof.Gen.KernelIdeal.Frame
import proofs.«154641_j27650999451936_2_alg».proof.Proof.Gen.ReferenceIdeal
import proofs.«154641_j27650999451936_2_alg».proof.Proof.Gen.ReferenceIdeal.Run
import proofs.«154641_j27650999451936_2_alg».proof.Proof.Gen.ReferenceIdeal.Read
import proofs.«154641_j27650999451936_2_alg».proof.Proof.Gen.Pre_finite_inputs
import proofs.«154641_j27650999451936_2_alg».proof.Proof.Final
import proofs.«154641_j27650999451936_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments, under the precondition, both programs end with the same result:
    entry by entry, the kernel program's two scaled halves are the reference's one scaled sum. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  refine (Cert.ReferenceIdeal.Read.val_main_v13_eq _ _ _ _ _ _ _).trans ?_
  rw [g0, g1, g2, g3, g4, g5, g6]
  funext i
  obtain ⟨b, s, h, rfl⟩ : ∃ (b : Fin 8) (s : Fin 16) (h : Fin 4096), i = ix3 b s h := ⟨i 0, i 1, i 2, eq_ix3 i⟩
  rw [Cert.ReferenceIdeal.RefValue.ref_apply]
  exact (Cert.KernelIdeal.Final.result_apply m c (hpre c) b s h).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
